-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S512x512 : Shape := ⟨2, ![512, 512]⟩
abbrev S512 : Shape := ⟨1, ![512]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S200000x256 .f32) (main_arg1 : FVec F S200000x256 .f32) (main_arg2 : FVec F S512x512 .f32) (main_arg3 : FVec F S512 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S200000x256 : Shape := ⟨2, ![200000, 256]⟩
abbrev S512x512 : Shape := ⟨2, ![512, 512]⟩
abbrev S512 : Shape := ⟨1, ![512]⟩
abbrev S1x512 : Shape := ⟨2, ![1, 512]⟩
abbrev S2x1x512 : Shape := ⟨3, ![2, 1, 512]⟩
abbrev S2000x256 : Shape := ⟨2, ![2000, 256]⟩
abbrev S1x1x512 : Shape := ⟨3, ![1, 1, 512]⟩
abbrev S512x256 : Shape := ⟨2, ![512, 256]⟩
abbrev S2000x512 : Shape := ⟨2, ![2000, 512]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S512x512, .f32⟩
  | .hbm, ⟨3, _⟩ => ⟨S512, .f32⟩
  | .hbm, ⟨4, _⟩ => ⟨S512x512, .bf16⟩
  | .hbm, ⟨5, _⟩ => ⟨S1x512, .f32⟩
  | .hbm, ⟨6, _⟩ => ⟨S2x1x512, .f32⟩
  | .hbm, ⟨7, _⟩ => ⟨S_, .f32⟩
  | .hbm, ⟨8, _⟩ => ⟨S1x512, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S512x512, .bf16⟩
  | .local _ .vmem, ⟨5, _⟩ => ⟨S1x512, .f32⟩
  | .local _ .vmem, ⟨6, _⟩ => ⟨S1x1x512, .f32⟩
  | .local _ .vmem, ⟨7, _⟩ => ⟨S1x1x512, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S512_S1x512 : S512.ShapeCasts S1x512
  inb_S2000x256_S2000x256_0_0 : ∀ a, (![0, 0] : Fin 2 → Nat) a + S2000x256.size a ≤ S2000x256.size a
  h_S2000x256 : 0 < S2000x256.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S512x512_o0_0_S512x256 : S512x512.Slices ![0, 0] S512x256
  slices_S512x512_o0_256_S512x256 : S512x512.Slices ![0, 256] S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reduces_S2000x512_S512 : S2000x512.Reduces [0] S512
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  reducesTo_S2x1x512_S1x512_d0 : S2x1x512.ReducesTo [0] S1x512
  h_S_ : 0 < S_.numel
  dot_S2000x256_S512x256_S2000x512_1_1_0_0_n_n_wf : DotDims.WF S2000x256 S512x256 S2000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S200000x256.size a
  hwx0_1 : ∀ i : grid0.Coords, EltTy.bits .f32 = 32 ∨ (Rect.block (s := S200000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)

variable [Facts₀]

def dot_S2000x256_S512x256_S2000x512_1_1_0_0_n_n : DotDims S2000x256 S512x256 S2000x512 where
  lhsContracting := [1]
  rhsContracting := [1]
  lhsNonContracting := [0]
  rhsNonContracting := [0]
  lhsBatch := []
  rhsBatch := []
  wf := dot_S2000x256_S512x256_S2000x512_1_1_0_0_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S200000x256 : Shape := ⟨2, ![200000, 256]⟩
abbrev S512x512 : Shape := ⟨2, ![512, 512]⟩
abbrev S512 : Shape := ⟨1, ![512]⟩
abbrev S200000x512 : Shape := ⟨2, ![200000, 512]⟩
abbrev S1x512 : Shape := ⟨2, ![1, 512]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S512x512, .f32⟩
  | .hbm, ⟨3, _⟩ => ⟨S512, .f32⟩
  | .hbm, ⟨4, _⟩ => ⟨S200000x512, .f32⟩
  | .hbm, ⟨5, _⟩ => ⟨S512x512, .f32⟩
  | .hbm, ⟨6, _⟩ => ⟨S200000x512, .f32⟩
  | .hbm, ⟨7, _⟩ => ⟨S1x512, .f32⟩
  | .hbm, ⟨8, _⟩ => ⟨S200000x512, .f32⟩
  | .hbm, ⟨9, _⟩ => ⟨S200000x512, .f32⟩
  | .hbm, ⟨10, _⟩ => ⟨S_, .f32⟩
  | .hbm, ⟨11, _⟩ => ⟨S200000x512, .f32⟩
  | .hbm, ⟨12, _⟩ => ⟨S200000x512, .f32⟩
  | .hbm, ⟨13, _⟩ => ⟨S_, .f32⟩
  | .hbm, ⟨14, _⟩ => ⟨S512, .f32⟩
  | .hbm, ⟨15, _⟩ => ⟨S1x512, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  concatenates_S200000x256_S200000x256_S200000x512_d1 : Shape.Concatenates [S200000x256, S200000x256] S200000x512 1
  transposes_S512x512_S512x512_1_0 : S512x512.Transposes [1, 0] S512x512
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  reducesTo_S200000x512_S512_d0 : S200000x512.ReducesTo [0] S512
  h_S_ : 0 < S_.numel
  dot_S200000x512_S512x512_S200000x512_1_0_0_1_n_n_wf : DotDims.WF S200000x512 S512x512 S200000x512 [1] [0] [0] [1] [] []

variable [Facts₀]

def dot_S200000x512_S512x512_S200000x512_1_0_0_1_n_n : DotDims S200000x512 S512x512 S200000x512 where
  lhsContracting := [1]
  rhsContracting := [0]
  lhsNonContracting := [0]
  rhsNonContracting := [1]
  lhsBatch := []
  rhsBatch := []
  wf := dot_S200000x512_S512x512_S200000x512_1_0_0_1_n_n_wf

class Facts : Prop extends Facts₀ where

variable [Facts]
-- ==== Proof.LibBlockSplit.lean ====
/-
  Splitting a finite sum over `Fin N` into `k` consecutive blocks of `m` terms each, `N = k * m`.

  `sum_blocks` proves: for `f : Fin N → M` in an additive commutative monoid and any family
  `row : Fin k → Fin m → Fin N` with `(row b r).val = m * b + r`,
  `∑ i, f i = ∑ b : Fin k, ∑ r : Fin m, f (row b r)`.
  `sum_blocks_two` and `sum_blocks_four` write the outer sum out for `k = 2` and `k = 4`.
  The sums over the blocks stay symbolic throughout: nothing is expanded into its terms.
-/
import Mathlib.Algebra.BigOperators.Fin
import Mathlib.Logic.Equiv.Fin.Basic

open scoped BigOperators

namespace Cert.Lib

/-- A sum over `Fin N`, `N = k * m`, is the sum over the `k` blocks of the sums over each block's `m` rows. -/
theorem sum_blocks {M : Type*} [AddCommMonoid M] (k m N : Nat) (hN : k * m = N) (f : Fin N → M)
    (row : Fin k → Fin m → Fin N) (hrow : ∀ b r, (row b r).val = m * b.val + r.val) :
    ∑ i, f i = ∑ b : Fin k, ∑ r : Fin m, f (row b r) := by
  subst hN
  rw [← Equiv.sum_comp (finProdFinEquiv (m := k) (n := m)) f, Fintype.sum_prod_type]
  refine Finset.sum_congr rfl fun b _ => Finset.sum_congr rfl fun r _ => congrArg f ?_
  apply Fin.ext
  rw [hrow]
  simp [finProdFinEquiv, Nat.add_comm]

/-- Two blocks. -/
theorem sum_blocks_two {M : Type*} [AddCommMonoid M] (m N : Nat) (hN : 2 * m = N) (f : Fin N → M)
    (row : Fin 2 → Fin m → Fin N) (hrow : ∀ b r, (row b r).val = m * b.val + r.val) :
    ∑ i, f i = (∑ r : Fin m, f (row 0 r)) + ∑ r : Fin m, f (row 1 r) := by
  rw [sum_blocks 2 m N hN f row hrow, Fin.sum_univ_two]

/-- Four blocks. -/
theorem sum_blocks_four {M : Type*} [AddCommMonoid M] (m N : Nat) (hN : 4 * m = N) (f : Fin N → M)
    (row : Fin 4 → Fin m → Fin N) (hrow : ∀ b r, (row b r).val = m * b.val + r.val) :
    ∑ i, f i = (∑ r : Fin m, f (row 0 r)) + (∑ r : Fin m, f (row 1 r))
      + (∑ r : Fin m, f (row 2 r)) + ∑ r : Fin m, f (row 3 r) := by
  rw [sum_blocks 4 m N hN f row hrow, Fin.sum_univ_four]

end Cert.Lib
-- ==== Proof.Spec.lean ====
/-
  The readout, as mathematics.

  Inputs: two matrices `v0, v1` of 200000 rows and 256 columns, a 512 x 512 matrix `W`, a bias `b` of length 512.
  Row `n` of the concatenation `[v0 | v1]` is multiplied with row `j` of `W`, the bias entry `j` is added, the
  result is clamped below at zero, and the clamped numbers are summed over all rows `n`:

      readout j = ∑ n, max ((∑ k < 512, [v0 | v1] (n, k) · W (j, k)) + b j) 0.

  Two regroupings of sums are all that separates the two programs compared in this certificate, and both hold in
  any additive commutative monoid, so they hold on the extended reals with no finiteness assumed:

    * a sum over the 512 columns is the sum over the left 256 plus the sum over the right 256 (`sum_cols`);
    * a sum over the 200000 rows is the sum over two halves of fifty blocks of 2000 rows (`sum_rows`).
-/
import Idealize.ShloMosaic.PureOps.Ideal
import Idealize.ShloMosaic.Lib.ValueIdx
import proofs.«130849_j47545287967106_2_alg».proof.Proof.LibBlockSplit

noncomputable section

open scoped BigOperators

namespace Readout

open Idealize.ShloMosaic Idealize.ShloMosaic.ValueIdx

/-- A matrix of extended reals with `a` rows and `b` columns. -/
abbrev Mat (a b : ℕ) : Type := (⟨2, ![a, b]⟩ : Shape).Idx → EReal

/-- Column `256 h + k` of a 512-wide row: `h = 0` is the left half, `h = 1` the right half. -/
def col (h : Fin 2) (k : Fin 256) : Fin 512 := ⟨256 * h.val + k.val, by have := h.isLt; have := k.isLt; omega⟩

/-- Row `2000 b + r`: row `r` of the `b`-th block of 2000 rows. -/
def row (b : Fin 100) (r : Fin 2000) : Fin 200000 := ⟨2000 * b.val + r.val, by have := b.isLt; have := r.isLt; omega⟩

/-- Block `50 c + t`: the `t`-th block of the `c`-th half of the rows. -/
def tile (c : Fin 2) (t : Fin 50) : Fin 100 := ⟨50 * c.val + t.val, by have := c.isLt; have := t.isLt; omega⟩

theorem col_val (h : Fin 2) (k : Fin 256) : (col h k).val = 256 * h.val + k.val := rfl
theorem row_val (b : Fin 100) (r : Fin 2000) : (row b r).val = 2000 * b.val + r.val := rfl
theorem tile_val (c : Fin 2) (t : Fin 50) : (tile c t).val = 50 * c.val + t.val := rfl

/-- One clamped entry: row `n` of `v0` against the left half of row `j` of `W`, plus row `n` of `v1` against the right
    half, plus the bias, clamped below at zero. The number of rows `R` is a parameter: the same formula is read on the
    whole inputs and on a block of their rows. -/
def act {R : ℕ} (v0 v1 : Mat R 256) (W : Mat 512 512) (bias : Fin 512 → EReal) (n : Fin R) (j : Fin 512) : EReal :=
  max (((∑ k : Fin 256, v0 (ix2 n k) * W (ix2 j (col 0 k))) + ∑ k : Fin 256, v1 (ix2 n k) * W (ix2 j (col 1 k))) + bias j) 0

/-- The entry depends only on row `n` of the two inputs, on row `j` of `W` and on entry `j` of the bias. -/
theorem act_congr {R R' : ℕ} (v0 v1 : Mat R 256) (W : Mat 512 512) (bias : Fin 512 → EReal) (n : Fin R)
    (v0' v1' : Mat R' 256) (W' : Mat 512 512) (bias' : Fin 512 → EReal) (n' : Fin R') (j : Fin 512)
    (h0 : ∀ k, v0 (ix2 n k) = v0' (ix2 n' k)) (h1 : ∀ k, v1 (ix2 n k) = v1' (ix2 n' k))
    (hW : ∀ k, W (ix2 j k) = W' (ix2 j k)) (hb : bias j = bias' j) :
    act v0 v1 W bias n j = act v0' v1' W' bias' n' j := by
  unfold act
  simp only [h0, h1, hW, hb]

/-- The readout: the clamped entries summed over all rows. -/
def readout (v0 v1 : Mat 200000 256) (W : Mat 512 512) (bias : Fin 512 → EReal) (j : Fin 512) : EReal :=
  ∑ n : Fin 200000, act v0 v1 W bias n j

/-- The clamped entries of the rows of one block, summed. -/
def blockSum (v0 v1 : Mat 200000 256) (W : Mat 512 512) (bias : Fin 512 → EReal) (b : Fin 100) (j : Fin 512) : EReal :=
  ∑ r : Fin 2000, act v0 v1 W bias (row b r) j

/-- A sum over the 512 columns is the sum over the left half plus the sum over the right half. -/
theorem sum_cols {M : Type*} [AddCommMonoid M] (f : Fin 512 → M) :
    ∑ k, f k = (∑ k : Fin 256, f (col 0 k)) + ∑ k : Fin 256, f (col 1 k) :=
  Cert.Lib.sum_blocks_two 256 512 rfl f col fun _ _ => rfl

/-- A sum over the 200000 rows is the sum over the two halves of fifty blocks of 2000 rows each. -/
theorem sum_rows {M : Type*} [AddCommMonoid M] (f : Fin 200000 → M) :
    ∑ n, f n = (∑ t : Fin 50, ∑ r : Fin 2000, f (row (tile 0 t) r)) + ∑ t : Fin 50, ∑ r : Fin 2000, f (row (tile 1 t) r) := by
  rw [Cert.Lib.sum_blocks 100 2000 200000 rfl f row fun _ _ => rfl]
  exact Cert.Lib.sum_blocks_two 50 100 rfl (fun b => ∑ r : Fin 2000, f (row b r)) tile fun _ _ => rfl

/-- The readout is the sum of the two halves' block sums. -/
theorem readout_blocks (v0 v1 : Mat 200000 256) (W : Mat 512 512) (bias : Fin 512 → EReal) (j : Fin 512) :
    readout v0 v1 W bias j
      = (∑ t : Fin 50, blockSum v0 v1 W bias (tile 0 t) j) + ∑ t : Fin 50, blockSum v0 v1 W bias (tile 1 t) j :=
  sum_rows fun n => act v0 v1 W bias n j

/-- The readout's entry written over the unsplit 512 columns of a joined matrix `cat` whose left half is `v0` and right
    half `v1`: the form a plain matrix product gives. -/
theorem act_of_joined {R : ℕ} (v0 v1 : Mat R 256) (cat : Mat R 512) (W : Mat 512 512) (bias : Fin 512 → EReal) (n : Fin R)
    (j : Fin 512) (hl : ∀ k, cat (ix2 n (col 0 k)) = v0 (ix2 n k)) (hr : ∀ k, cat (ix2 n (col 1 k)) = v1 (ix2 n k)) :
    max ((∑ k : Fin 512, cat (ix2 n k) * W (ix2 j k)) + bias j) 0 = act v0 v1 W bias n j := by
  unfold act
  rw [sum_cols fun k => cat (ix2 n k) * W (ix2 j k)]
  simp only [hl, hr]

end Readout

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«130849_j47545287967106_2_alg».proof.Proof.LibPlainDot
import proofs.«130849_j47545287967106_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibColumnSums.lean ====
/-
  Column sums of a matrix read at an index.

  A float sum of an `[a, b]` matrix along its rows (axis 0) is a vector of length `b` whose entry `q` is, at
  the exact values, the sum over the row coordinate `p` of the matrix's entry `(p, q)`: the reduced index with the
  row coordinate put back is `(p, q)`.
-/
import Idealize.ShloMosaic.Lib.ValueIdx
import Idealize.ShloMosaic.PureOps.Ideal.Laws

noncomputable section

open scoped BigOperators

namespace Cert.LibColumnSums

open Idealize.ShloMosaic Idealize.ShloMosaic.ValueIdx

/-- The source index over column `q` with row `p` inserted is `(p, q)`. -/
theorem lift_ix1 {a b : ℕ} (h : (⟨2, ![a, b]⟩ : Shape).Reduces [0] ⟨1, ![b]⟩) (q : Fin b) (p : Fin a) :
    h.lift (ix1 q) p = ix2 p q := by
  funext ax
  match ax with
  | ⟨0, _⟩ => rfl
  | ⟨1, _⟩ => rfl

/-- A float sum over the rows of an `[a, b]` matrix is, at column `q`, the sum over the row coordinate. -/
theorem multiReduction_add_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) :=
  (Ideal.multiReduction_add_single src acc h hφ hacc (ix1 q)).trans
    (Finset.sum_congr rfl fun p _ => congrArg src (lift_ix1 h q p))

end Cert.LibColumnSums

end
-- ==== Proof.KernelTile.lean ====
/-
  What one grid point adds to the accumulator, entry by entry, at the exact values.

  At a grid point the kernel body holds a block of 2000 rows of each input (`x0`, `x1`), the whole matrix `W` (`x2`), the
  bias as a row (`x3`) and the accumulator block (`xo`). It forms the two products of the row blocks with the left and
  right halves of `W`'s rows, adds them and the bias, clamps below at zero, sums down the 2000 rows, and adds the
  result to the accumulator. Read at column `j` this is

      xo j + ∑ r < 2000, max ((∑ k, x0 (r, k) · W (j, k) + ∑ k, x1 (r, k) · W (j, 256 + k)) + bias j) 0.

  A change of float format is the identity at the exact values, a matrix product into the zero block is the plain
  sum over the contracted axis, and a sum down the rows from the neutral word is the plain sum over the rows.
-/
import proofs.«130849_j47545287967106_2_alg».proof.Proof.Gen.KernelIdeal.Skeleton
import proofs.«130849_j47545287967106_2_alg».proof.Proof.Spec
import proofs.«130849_j47545287967106_2_alg».proof.Proof.LibZeroAccDots
import proofs.«130849_j47545287967106_2_alg».proof.Proof.LibColumnSums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx Readout

/-- The bias row `[1, 512]` as a function of the column. -/
def biasRow (x3 : FVec Ideal S1x512 .f32) : Fin 512 → EReal := fun q => x3 (ix2 (0 : Fin 1) q)

/-- Half `h` of row `q` of `W`, cut out as a `[512, 256]` matrix at column offset `off` (`off = 256 h`), read at `(q, k)`. -/
theorem half_apply (x2 : FVec Ideal S512x512 .bf16) (h : Fin 2) (off : Fin 2 → Nat) (hoff : off = ![0, 256 * h.val])
    (hs : S512x512.Slices off S512x256) (q : Fin 512) (k : Fin 256) :
    extractStridedSlice S512x256 off (shapeCast S512x512 x2 shapeCasts_S512x512_S512x512) hs (ix2 q k) = x2 (ix2 q (col h k)) := by
  subst hoff
  rw [shapeCast_self]
  refine extractStridedSlice_apply _ x2 hs (ix2 q k) (ix2 q (col h k)) fun a => ?_
  match a with
  | ⟨0, _⟩ => show q.val = 0 + q.val; omega
  | ⟨1, _⟩ => show (col h k).val = 256 * h.val + k.val; rfl

/-- One of the two products, at `(p, q)`: row `p` of the row block against half `h` of row `q` of `W`. -/
theorem product_apply (x : FVec Ideal S2000x256 .f32) (x2 : FVec Ideal S512x512 .bf16) (h : Fin 2) (off : Fin 2 → Nat)
    (hoff : off = ![0, 256 * h.val]) (hs : S512x512.Slices off S512x256) (p : Fin 2000) (q : Fin 512) :
    matmul dot_S2000x256_S512x256_S2000x512_1_1_0_0_n_n none (truncf .bf16 x bitsLt_bf16_f32)
        (extractStridedSlice S512x256 off (shapeCast S512x512 x2 shapeCasts_S512x512_S512x512) hs)
        (constant (F := Ideal) S2000x512 .f32 0x00000000#32) (ix2 p q)
      = ∑ k : Fin 256, x (ix2 p k) * x2 (ix2 q (col h k)) := by
  refine (Cert.ZeroAccDots.rows_rows dot_S2000x256_S512x256_S2000x512_1_1_0_0_n_n rfl rfl rfl rfl rfl rfl rfl rfl none
    (truncf .bf16 x bitsLt_bf16_f32) _ p q).trans ?_
  refine Finset.sum_congr rfl fun k _ => ?_
  rw [half_apply x2 h off hoff hs q k]
  rfl

/-- The clamped entry `(p, q)` of the block: the two products, the bias, the clamp. -/
theorem clamped_apply (x0 x1 : FVec Ideal S2000x256 .f32) (x2 : FVec Ideal S512x512 .bf16) (x3 : FVec Ideal S1x512 .f32)
    (p : Fin 2000) (q : Fin 512) :
    maximumf (addf (addf
        (matmul dot_S2000x256_S512x256_S2000x512_1_1_0_0_n_n none (truncf .bf16 x0 bitsLt_bf16_f32)
          (extractStridedSlice S512x256 ![0, 0] (shapeCast S512x512 x2 shapeCasts_S512x512_S512x512) slices_S512x512_o0_0_S512x256)
          (constant (F := Ideal) S2000x512 .f32 0x00000000#32))
        (matmul dot_S2000x256_S512x256_S2000x512_1_1_0_0_n_n none (truncf .bf16 x1 bitsLt_bf16_f32)
          (extractStridedSlice S512x256 ![0, 256] (shapeCast S512x512 x2 shapeCasts_S512x512_S512x512) slices_S512x512_o0_256_S512x256)
          (constant (F := Ideal) S2000x512 .f32 0x00000000#32)))
        (broadcastTo S2000x512 (shapeCast S1x512 x3 shapeCasts_S1x512_S1x512) broadcasts_S1x512_S2000x512))
      (broadcast S2000x512 (Scalar.ofBits (F := Ideal) .f32 0x00000000#32)) (ix2 p q)
    = act x0 x1 x2 (biasRow x3) p q := by
  rw [maximumf_apply, addf_apply, addf_apply, broadcast_apply,
    product_apply x0 x2 0 ![0, 0] rfl slices_S512x512_o0_0_S512x256 p q,
    product_apply x1 x2 1 ![0, 256] rfl slices_S512x512_o0_256_S512x256 p q,
    shapeCast_self,
    broadcastTo_apply x3 broadcasts_S1x512_S2000x512 (ix2 p q) (ix2 (0 : Fin 1) q) (fun a => by
      match a with
      | ⟨0, _⟩ => rfl
      | ⟨1, _⟩ => rfl)]
  show max _ (Ideal.ofBits .f32 0x00000000#32) = _
  rw [Ideal.ofBits_zero_f32]
  rfl

/-- THE STORED VALUE at column `j`: the accumulator's entry plus the block's clamped entries summed down its rows. -/
theorem pay2_apply (x0 x1 : FVec Ideal S2000x256 .f32) (x2 : FVec Ideal S512x512 .bf16) (x3 : FVec Ideal S1x512 .f32)
    (xo : FVec Ideal S1x1x512 .f32) (u0 u1 : Fin 1) (j : Fin 512) :
    k0_pay2 (F := Ideal) x0 x1 x2 x3 xo (ix3 u0 u1 j)
      = xo (ix3 u0 u1 j) + ∑ r : Fin 2000, act x0 x1 x2 (biasRow x3) r j := by
  unfold k0_pay2
  refine (addf_apply _ _ _).trans ?_
  refine congrArg₂ (· + ·) (congrFun (shapeCast_self xo shapeCasts_S1x1x512_S1x1x512) _) ?_
  refine (shapeCast_ab_1ab_apply _ shapeCasts_S1x512_S1x1x512 u0 u1 j).trans ?_
  refine (shapeCast_a_1a_apply _ shapeCasts_S512_S1x512 u1 j).trans ?_
  refine (Cert.LibColumnSums.multiReduction_add_rows_apply _ 0x00000000#32 reduces_S2000x512_S512 (.inl rfl) rfl j).trans ?_
  exact Finset.sum_congr rfl fun r _ => clamped_apply x0 x1 x2 x3 r j

/-- The reset value: the zero block. -/
theorem pay1_apply (i : S1x1x512.Idx) : k0_pay1 (F := Ideal) i = 0 := by
  unfold k0_pay1
  show Ideal.ofBits .f32 0x00000000#32 = 0
  exact Ideal.ofBits_zero_f32

end Cert.KernelIdeal.Tile

end
-- ==== Proof.KernelCases.lean ====
/-
  What the kernel body leaves in the accumulator block, in each of its two cases.

  The body stores into the accumulator block through the whole block. At the first step of a group of fifty it first
  stores the zero block, reads it back, and then stores "what it read plus this step's term"; at every other step it
  reads what the step before left and stores "that plus this step's term". Both stores cover the whole block, and every
  load reads a whole staging buffer, so what the block holds afterwards is the last store's value, as one function of
  the blocks the step was given: the stored value of the step, applied to the zero block or to what the step before
  left. Nothing here depends on how the numbers are read.
-/
import proofs.«130849_j47545287967106_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A step that is not the first of its group: the stored value over what the step before left. -/
theorem out_B (c : Dev nD) (i : grid0.Coords) (a2 : Memref sig .tc .vmem S2000x256 .f32) (h2 : a2.IsWhole)
    (a3 : Memref sig .tc .vmem S2000x256 .f32) (h3 : a3.IsWhole) (a4 : Memref sig .tc .vmem S512x512 .bf16) (h4 : a4.IsWhole)
    (a5 : Memref sig .tc .vmem S1x512 .f32) (h5 : a5.IsWhole) (a6 : Memref sig .tc .vmem S1x1x512 .f32) (h6 : a6.IsWhole) (hc : ¬cond0_0 i)
    (x0 x1 : Vec F S2000x256 .f32) (x2 : Vec F S512x512 .bf16) (x3 : Vec F S1x512 .f32) (xo : Vec F S1x1x512 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero (S := S1x1x512) hz3]
  simp only [View.readAt_eq_ld, h2.read_unread, h3.read_unread, h4.read_unread, h5.read_unread, h6.read_unread,
    View.ld_unit_zero (S := S2000x256) hz2, View.ld_unit_zero (S := S512x512) hz2, View.ld_unit_zero (S := S1x512) hz2,
    View.ld_unit_zero (S := S1x1x512) hz3]

/-- The first step of a group: the zero block is stored and read back, so the stored value is taken over the zero
    block. -/
theorem out_A (c : Dev nD) (i : grid0.Coords) (a2 : Memref sig .tc .vmem S2000x256 .f32) (h2 : a2.IsWhole)
    (a3 : Memref sig .tc .vmem S2000x256 .f32) (h3 : a3.IsWhole) (a4 : Memref sig .tc .vmem S512x512 .bf16) (h4 : a4.IsWhole)
    (a5 : Memref sig .tc .vmem S1x512 .f32) (h5 : a5.IsWhole) (a6 : Memref sig .tc .vmem S1x1x512 .f32) (h6 : a6.IsWhole) (hc : cond0_0 i)
    (x0 x1 : Vec F S2000x256 .f32) (x2 : Vec F S512x512 .bf16) (x3 : Vec F S1x512 .f32) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x1x512) hz3, View.readCov_unit_zero (S := S1x1x512) _ hz3]
  simp only [View.readAt_eq_ld, h2.read_unread, h3.read_unread, h4.read_unread, h5.read_unread, h6.read_unread,
    View.ld_unit_zero (S := S2000x256) hz2, View.ld_unit_zero (S := S512x512) hz2, View.ld_unit_zero (S := S1x512) hz2,
    View.ld_unit_zero (S := S1x1x512) hz3]

end Cert.KernelIdeal.Cases

end
-- ==== Proof.KernelBlocks.lean ====
/-
  The blocks a grid point is given, as entries of the argument arrays.

  Grid point `t` (of 100, in launch order) is given rows `2000 t … 2000 t + 1999` of each input, the whole of `W`
  (converted to a narrower float format by the program before the launch: the identity at the exact values) and the
  bias laid out as one row (a reshape by the program before the launch: entry `q` of the row is entry `q` of the bias).
-/
import proofs.«130849_j47545287967106_2_alg».proof.Proof.Gen.KernelIdeal.Frame
import proofs.«130849_j47545287967106_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Readout

variable (m : (ℓ : Loc nD τ sig) → Buf (Elt Ideal) ℓ)

/-- The grid has 100 points. -/
theorem lt100 (t : Fin cfg0.N) : t.val < 100 := lt_of_lt_of_eq t.isLt (show cfg0.N = 100 from N_0)

/-- Point `t` as a block number. -/
def blockOf (t : Fin cfg0.N) : Fin 100 := ⟨t.val, lt100 t⟩

/-- The index maps over the grid: the inputs' block row is the point's number, their block column zero; `W`'s and the
    bias's block is the one at the origin. -/
theorem index_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0))

/-- Row `r` of the first input's block at point `t` is row `2000 t + r` of the first input. -/
theorem blk0_apply (c : Dev nD) (t : Fin cfg0.N) (r : Fin 2000) (k : Fin 256) :
    (iblk m c 0 t : FVec Ideal S2000x256 .f32) (ix2 r k)
      = (m ((c : Thread nD τ).loc main_arg0) : FVec Ideal S200000x256 .f32) (ix2 (row (blockOf t) r) k) := by
  unfold iblk
  rw [View.read_apply]
  show V m c main_arg0 _ = _
  rw [V_main_arg0]
  refine congrArg _ (funext fun a => Fin.ext ?_)
  obtain ⟨⟨e0, e1⟩, -⟩ := index_facts t
  match a with
  | ⟨0, _⟩ => show win0_0.index t 0 * 2000 + 1 * r.val = 2000 * t.val + r.val; rw [e0]; omega
  | ⟨1, _⟩ => show win0_0.index t 1 * 256 + 1 * k.val = k.val; rw [e1]; omega

/-- Row `r` of the second input's block at point `t` is row `2000 t + r` of the second input. -/
theorem blk1_apply (c : Dev nD) (t : Fin cfg0.N) (r : Fin 2000) (k : Fin 256) :
    (iblk m c 1 t : FVec Ideal S2000x256 .f32) (ix2 r k)
      = (m ((c : Thread nD τ).loc main_arg1) : FVec Ideal S200000x256 .f32) (ix2 (row (blockOf t) r) k) := by
  unfold iblk
  rw [View.read_apply]
  show V m c main_arg1 _ = _
  rw [V_main_arg1]
  refine congrArg _ (funext fun a => Fin.ext ?_)
  obtain ⟨-, ⟨e0, e1⟩, -⟩ := index_facts t
  match a with
  | ⟨0, _⟩ => show win0_1.index t 0 * 2000 + 1 * r.val = 2000 * t.val + r.val; rw [e0]; omega
  | ⟨1, _⟩ => show win0_1.index t 1 * 256 + 1 * k.val = k.val; rw [e1]; omega

/-- Before the launch the program converts `W` to a narrower float format. -/
theorem V_W (c : Dev nD) :
    (V m c main_v0 : FVec Ideal S512x512 .bf16)
      = truncf (F := Ideal) (s := S512x512) (φ := .f32) .bf16 (m ((c : Thread nD τ).loc main_arg2)) bitsLt_bf16_f32 := by
  show StableHlo.after hostOps0 (fun b => m (c, b)) (Proc.devRef .tc main_v0) = _
  after_results <;> rfl

/-- Before the launch the program lays the bias out as one row. -/
theorem V_bias (c : Dev nD) :
    (V m c main_v1 : FVec Ideal S1x512 .f32)
      = shapeCast S1x512 (m ((c : Thread nD τ).loc main_arg3) : FVec Ideal S512 .f32) shapeCasts_S512_S1x512 := by
  show StableHlo.after hostOps0 (fun b => m (c, b)) (Proc.devRef .tc main_v1) = _
  after_results <;> rfl

/-- The block of `W` at any point is the whole of `W`, entry for entry. -/
theorem blk2_apply (c : Dev nD) (t : Fin cfg0.N) (q k : Fin 512) :
    (iblk m c 2 t : FVec Ideal S512x512 .bf16) (ix2 q k)
      = (m ((c : Thread nD τ).loc main_arg2) : FVec Ideal S512x512 .f32) (ix2 q k) := by
  unfold iblk
  rw [View.read_apply]
  show (V m c main_v0 : FVec Ideal S512x512 .bf16) _ = _
  rw [V_W]
  show (m ((c : Thread nD τ).loc main_arg2) : FVec Ideal S512x512 .f32) _ = _
  refine congrArg _ (funext fun a => Fin.ext ?_)
  obtain ⟨-, -, ⟨e0, e1⟩, -⟩ := index_facts t
  match a with
  | ⟨0, _⟩ => show win0_2.index t 0 * 512 + 1 * q.val = q.val; rw [e0]; omega
  | ⟨1, _⟩ => show win0_2.index t 1 * 512 + 1 * k.val = k.val; rw [e1]; omega

/-- The bias block at any point is the bias row: its entry `q` is entry `q` of the bias. -/
theorem blk3_apply (c : Dev nD) (t : Fin cfg0.N) (u : Fin 1) (q : Fin 512) :
    (iblk m c 3 t : FVec Ideal S1x512 .f32) (ix2 u q)
      = (m ((c : Thread nD τ).loc main_arg3) : FVec Ideal S512 .f32) (ix1 q) := by
  unfold iblk
  rw [View.read_apply]
  show (V m c main_v1 : FVec Ideal S1x512 .f32) _ = _
  rw [V_bias]
  have hu : u.val = 0 := by omega
  obtain ⟨-, -, -, ⟨e0, e1⟩⟩ := index_facts t
  have he : ((cfg0.win 3).blk t).view.emb (ix2 u q) = (ix2 (0 : Fin 1) q : S1x512.Idx) := funext fun a => Fin.ext (by
    match a with
    | ⟨0, _⟩ => show win0_3.index t 0 * 1 + 1 * u.val = 0; rw [e0]; omega
    | ⟨1, _⟩ => show win0_3.index t 1 * 512 + 1 * q.val = q.val; rw [e1]; omega)
  rw [he]
  exact shapeCast_a_1a_apply _ shapeCasts_S512_S1x512 (0 : Fin 1) q

end Cert.KernelIdeal.Blocks

end
-- ==== Proof.LibResetSum.lean ====
/-
  An accumulator that is reset every `B` steps.

  Steps are numbered `0, 1, 2, …`; step `n` contributes a term `P n` of an additive commutative monoid. At a step whose
  number is divisible by `B` the accumulator is set to the step's term alone; at every other step the term is added to
  what the accumulator holds. `running B P n` is what it holds after step `n`. Then

    * after step `n` it holds the terms of the steps since the last multiple of `B`:
      `running B P n = ∑ i < n % B + 1, P (n − n % B + i)`  (`running_eq`);
    * after the last step of the `c`-th group of `B` steps it holds the sum of the group's `B` terms:
      `running B P (B c + (B − 1)) = ∑ t < B, P (B c + t)`  (`running_last`).

  Only associativity of the sum is used (no subtraction, no cancellation), so the statements apply to the extended
  reals as they are. This is what an output block of a grid computation holds when it is zeroed at the first point of a
  reduction axis of extent `B` and added into at the later ones.
-/
import Mathlib.Algebra.BigOperators.Fin
import Mathlib.Tactic.Common

open scoped BigOperators

namespace Cert.LibResetSum

variable {M : Type*} [AddCommMonoid M]

/-- What the accumulator holds after step `n`. -/
def running (B : ℕ) (P : ℕ → M) : ℕ → M
  | 0 => P 0
  | n + 1 => if (n + 1) % B = 0 then P (n + 1) else running B P n + P (n + 1)

theorem running_zero (B : ℕ) (P : ℕ → M) : running B P 0 = P 0 := rfl

/-- A step divisible by `B` resets. -/
theorem running_reset (B : ℕ) (P : ℕ → M) (n : ℕ) (h : (n + 1) % B = 0) : running B P (n + 1) = P (n + 1) := by
  rw [running, if_pos h]

/-- Every other step adds. -/
theorem running_step (B : ℕ) (P : ℕ → M) (n : ℕ) (h : ¬(n + 1) % B = 0) :
    running B P (n + 1) = running B P n + P (n + 1) := by
  rw [running, if_neg h]

/-- Unless `n + 1` is divisible by `B`, its remainder is the remainder of `n` plus one. -/
theorem succ_mod_of_ne (B n : ℕ) (h : ¬(n + 1) % B = 0) : (n + 1) % B = n % B + 1 := by
  rcases Nat.eq_zero_or_pos B with rfl | hB
  · simp
  · have hr : n % B < B := Nat.mod_lt n hB
    have hn : B * (n / B) + n % B = n := Nat.div_add_mod n B
    by_cases hlt : n % B + 1 < B
    · have e : n + 1 = B * (n / B) + (n % B + 1) := by omega
      calc (n + 1) % B = (B * (n / B) + (n % B + 1)) % B := congrArg (· % B) e
        _ = (n % B + 1) % B := Nat.mul_add_mod _ _ _
        _ = n % B + 1 := Nat.mod_eq_of_lt hlt
    · exfalso
      apply h
      have h1 : n % B + 1 = B := by omega
      have e : n + 1 = B * (n / B + 1) := by rw [Nat.mul_add, Nat.mul_one]; omega
      rw [e]
      exact Nat.mul_mod_right _ _

/-- After step `n` the accumulator holds the terms of the steps since the last multiple of `B`. -/
theorem running_eq (B : ℕ) (P : ℕ → M) : ∀ n : ℕ, running B P n = ∑ i ∈ Finset.range (n % B + 1), P (n - n % B + i)
  | 0 => by simp [running]
  | n + 1 => by
    by_cases h : (n + 1) % B = 0
    · rw [running_reset B P n h, h]
      simp
    · have h1 := succ_mod_of_ne B n h
      have hle : n % B ≤ n := Nat.mod_le n B
      have h2 : n + 1 - (n % B + 1) = n - n % B := by omega
      have h3 : n - n % B + (n % B + 1) = n + 1 := by omega
      rw [running_step B P n h, running_eq B P n, h1, h2,
        Finset.sum_range_succ (fun i => P (n - n % B + i)) (n % B + 1), h3]

/-- After the last step of the `c`-th group of `B` steps it holds the sum of the group's `B` terms. -/
theorem running_last (B : ℕ) (hB : 0 < B) (P : ℕ → M) (c : ℕ) :
    running B P (B * c + (B - 1)) = ∑ t : Fin B, P (B * c + t.val) := by
  have h1 : (B * c + (B - 1)) % B = B - 1 := by
    rw [Nat.mul_add_mod]
    exact Nat.mod_eq_of_lt (by omega)
  have h2 : B * c + (B - 1) - (B - 1) = B * c := Nat.add_sub_cancel ..
  have h3 : B - 1 + 1 = B := Nat.sub_add_cancel hB
  rw [running_eq, h1, h2, h3]
  exact Finset.sum_range fun i => P (B * c + i)

end Cert.LibResetSum
-- ==== Proof.KernelChain.lean ====
/-
  The accumulator block after each grid point.

  Point `t` adds to the accumulator, at column `j`, the block sum of block `t`: the clamped entries of rows
  `2000 t … 2000 t + 1999`, summed. The accumulator is reset to zero at the first point of each group of fifty, so after
  point `n` it holds, at column `j`, the running sum of the block sums since the last multiple of fifty — by induction
  on the point, one step per point, never by listing the 100 points.
-/
import proofs.«130849_j47545287967106_2_alg».proof.Proof.KernelTile
import proofs.«130849_j47545287967106_2_alg».proof.Proof.KernelCases
import proofs.«130849_j47545287967106_2_alg».proof.Proof.KernelBlocks
import proofs.«130849_j47545287967106_2_alg».proof.Proof.LibResetSum

noncomputable section

open scoped BigOperators

namespace Cert.KernelIdeal.Chain

open Cert.KernelIdeal Cert.KernelIdeal.Gen Idealize.ShloMosaic Idealize.ShloMosaic.TcCoe Idealize.SL.Sem
open Idealize.ShloMosaic.ValueIdx Readout Cert.KernelIdeal.Blocks
open Cert.LibResetSum (running running_reset running_step)

variable (m : (ℓ : Loc nD τ sig) → Buf (Elt Ideal) ℓ)

/-- The argument arrays as matrices of extended reals, and the bias as a function of the column. -/
abbrev in0 (c : Dev nD) : Mat 200000 256 := (m ((c : Thread nD τ).loc main_arg0) : FVec Ideal S200000x256 .f32)
abbrev in1 (c : Dev nD) : Mat 200000 256 := (m ((c : Thread nD τ).loc main_arg1) : FVec Ideal S200000x256 .f32)
abbrev inW (c : Dev nD) : Mat 512 512 := (m ((c : Thread nD τ).loc main_arg2) : FVec Ideal S512x512 .f32)
def inBias (c : Dev nD) : Fin 512 → EReal := fun q => (m ((c : Thread nD τ).loc main_arg3) : FVec Ideal S512 .f32) (ix1 q)

/-- The term step `k` adds at column `j`: block `k`'s block sum (steps past the grid add nothing). -/
def term (c : Dev nD) (j : Fin 512) (k : ℕ) : EReal :=
  if hk : k < 100 then blockSum (in0 m c) (in1 m c) (inW m c) (inBias m c) ⟨k, hk⟩ j else 0

/-- ONE STEP: the stored value at point `t` over an accumulator `xo` is, at column `j`, `xo`'s entry plus block `t`'s
    block sum. -/
theorem step_apply (c : Dev nD) (t : Fin cfg0.N) (xo : FVec Ideal S1x1x512 .f32) (u0 u1 : Fin 1) (j : Fin 512) :
    k0_pay2 (F := Ideal) (iblk m c 0 t) (iblk m c 1 t) (iblk m c 2 t) (iblk m c 3 t) xo (ix3 u0 u1 j)
      = xo (ix3 u0 u1 j) + term m c j t.val := by
  refine (Tile.pay2_apply (iblk m c 0 t) (iblk m c 1 t) (iblk m c 2 t) (iblk m c 3 t) xo u0 u1 j).trans ?_
  refine congrArg (xo (ix3 u0 u1 j) + ·) ?_
  unfold term
  rw [dif_pos (lt100 t)]
  unfold blockSum
  refine Finset.sum_congr rfl fun r _ => ?_
  exact act_congr _ _ _ _ r (in0 m c) (in1 m c) (inW m c) (inBias m c) (row ⟨t.val, lt100 t⟩ r) j
    (fun k => blk0_apply m c t r k) (fun k => blk1_apply m c t r k) (fun k => blk2_apply m c t j k)
    (blk3_apply m c t (0 : Fin 1) j)

/-- THE ACCUMULATOR after point `n`, at column `j`: the running sum of the block sums. -/
theorem outsAt_apply (c : Dev nD) : ∀ (n : ℕ) (h : n < cfg0.N) (u0 u1 : Fin 1) (j : Fin 512),
    (outsAt0 m c n h : FVec Ideal S1x1x512 .f32) (ix3 u0 u1 j) = running 50 (term m c j) n
  | 0, h, u0, u1, j => by
    have e := (outsAt0_A m c ⟨0, h⟩ rfl).trans (Cases.out_A ..)
    refine (congrFun e (ix3 u0 u1 j)).trans ?_
    refine (step_apply m c ⟨0, h⟩ _ u0 u1 j).trans ?_
    rw [Tile.pay1_apply, zero_add]
    rfl
  | n + 1, h, u0, u1, j => by
    by_cases h0 : (n + 1) % 50 = 0
    · have e := (outsAt0_A m c ⟨n + 1, h⟩ h0).trans (Cases.out_A ..)
      refine (congrFun e (ix3 u0 u1 j)).trans ?_
      refine (step_apply m c ⟨n + 1, h⟩ _ u0 u1 j).trans ?_
      rw [Tile.pay1_apply, zero_add, running_reset 50 _ n h0]
    · have e := (outsAt0_B m c ⟨n + 1, h⟩ h0).trans (Cases.out_B ..)
      refine (congrFun e (ix3 u0 u1 j)).trans ?_
      refine (step_apply m c ⟨n + 1, h⟩ _ u0 u1 j).trans ?_
      rw [running_step 50 _ n h0]
      exact congrArg (· + term m c j (n + 1)) (outsAt_apply c n _ u0 u1 j)

end Cert.KernelIdeal.Chain

end
-- ==== Proof.SpecResult.lean ====
/-
  The result both programs are compared at: a `[1, 512]` array whose entry `(·, j)` is zero plus the readout at column `j`
  (the zero is the initial value of the final sum, kept as the float word both programs write).
-/
import proofs.«130849_j47545287967106_2_alg».proof.Proof.Spec

noncomputable section

namespace Readout

open Idealize.ShloMosaic Idealize.ShloMosaic.ValueIdx

/-- Zero plus the readout, as a `[1, 512]` array, of the two inputs, `W` and the bias vector. -/
def result (v0 v1 : Mat 200000 256) (W : Mat 512 512) (b : (⟨1, ![512]⟩ : Shape).Idx → EReal) :
    (⟨2, ![1, 512]⟩ : Shape).Idx → EReal :=
  fun i => Ideal.ofBits .f32 0x00000000#32 + readout v0 v1 W (fun q => b (ix1 q)) ⟨(i 1).val, (i 1).isLt⟩

theorem result_apply (v0 v1 : Mat 200000 256) (W : Mat 512 512) (b : (⟨1, ![512]⟩ : Shape).Idx → EReal) (u : Fin 1) (q : Fin 512) :
    result v0 v1 W b (ix2 u q) = Ideal.ofBits .f32 0x00000000#32 + readout v0 v1 W (fun q => b (ix1 q)) q := rfl

end Readout

end
-- ==== Proof.KernelResult.lean ====
/-
  The kernel's result.

  The output array of the launch has one block per half of the rows. A half's block is written back once, after the
  last of the half's fifty points, when the accumulator holds the sum of the half's fifty block sums; the two blocks
  tile the array, so after the launch its entry `(h, ·, j)` is the sum of the block sums of half `h` at column `j`. The
  program then adds the two halves starting from zero, and the sum over all rows regrouped by halves and blocks is the
  readout.
-/
import proofs.«130849_j47545287967106_2_alg».proof.Proof.KernelChain
import proofs.«130849_j47545287967106_2_alg».proof.Proof.SpecResult
import Idealize.ShloMosaic.PureOps.Ideal.Laws

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Readout Cert.KernelIdeal.Blocks Cert.KernelIdeal.Chain
open Idealize.ShloMosaic.Pipeline (Dat)
open Cert.LibResetSum (running running_last)

variable (m : (ℓ : Loc nD τ sig) → Buf (Elt Ideal) ℓ) (ρ : Dev nD → PrngReg)

/-- The launch's output array: at `(h, ·, j)` the sum of the fifty block sums of half `h` at column `j`. -/
def halves (c : Dev nD) : FVec Ideal S2x1x512 .f32 :=
  fun i => ∑ s : Fin 50, term m c ⟨(i 2).val, (i 2).isLt⟩ (50 * (i 0).val + s.val)

/-- The output's block at point `t` is block `t / 50` along the first axis, at the origin of the other two. -/
theorem out_index_facts : ∀ t : Fin cfg0.N, win0_4.index t 0 = t.val / 50 ∧ win0_4.index t 1 = 0 ∧ win0_4.index t 2 = 0 :=
  (by decide +kernel : ∀ t : Fin grid0.N, win0_4.index t 0 = t.val / 50 ∧ win0_4.index t 1 = 0 ∧ win0_4.index t 2 = 0)

/-- What a write-back writes: the point is the last of its half, and the accumulator holds the half's sum. -/
theorem flushed_eq (c : Dev nD) (t : Fin cfg0.N) (hf : (cfg0.win 4).flush t = true) :
    (dats m 0 c).flushed 4 t = ((cfg0.win 4).blk t).view.read (Elt Ideal) (halves m c) := by
  have h49 : t.val % 50 = 49 := (flush0_4 t).mp hf
  have hN := lt100 t
  obtain ⟨e0, e1, e2⟩ := out_index_facts t
  obtain ⟨q, hq⟩ : ∃ q, t.val = 50 * q + 49 := ⟨t.val / 50, by omega⟩
  have hdiv : t.val / 50 = q := by omega
  rw [hdiv] at e0
  show (cfg0.win 4).cut (grid0.coords t) ((dats m 0 c).after 4 t) = _
  rw [after0_4]
  funext y
  obtain ⟨u0, u1, j, rfl⟩ : ∃ (u0 u1 : Fin 1) (j : Fin 512), y = ix3 u0 u1 j := ⟨y 0, y 1, y 2, eq_ix3 y⟩
  show (outsAt0 m c t.val t.isLt : FVec Ideal S1x1x512 .f32) (ix3 u0 u1 j)
    = halves m c (((cfg0.win 4).blk t).view.emb (ix3 u0 u1 j))
  rw [outsAt_apply m c t.val t.isLt u0 u1 j]
  have hemb : ((cfg0.win 4).blk t).view.emb (ix3 u0 u1 j) = (ix3 (⟨q, by omega⟩ : Fin 2) (0 : Fin 1) j : S2x1x512.Idx) :=
    funext fun a => Fin.ext (by
      match a with
      | ⟨0, _⟩ => show win0_4.index t 0 * 1 + 1 * u0.val = q; rw [e0]; omega
      | ⟨1, _⟩ => show win0_4.index t 1 * 1 + 1 * u1.val = 0; rw [e1]; omega
      | ⟨2, _⟩ => show win0_4.index t 2 * 512 + 1 * j.val = j.val; rw [e2]; omega)
  rw [hemb]
  show running 50 (term m c j) t.val = ∑ s : Fin 50, term m c j (50 * q + s.val)
  rw [hq]
  exact running_last 50 (by decide) _ q

/-- The two write-backs cover the output array: entry `(h, ·, ·)` lies in the block written after point `50 h + 49`. -/
theorem cover (i : S2x1x512.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 512 := (i 2).isLt
  have hN : cfg0.N = 100 := N_0
  have hlt : 50 * (i 0).val + 49 < cfg0.N := by omega
  refine ⟨⟨50 * (i 0).val + 49, hlt⟩, (flush0_4 _).mpr (by show (50 * (i 0).val + 49) % 50 = 49; omega), ?_⟩
  obtain ⟨e0, e1, e2⟩ := out_index_facts ⟨50 * (i 0).val + 49, hlt⟩
  have e0' : win0_4.index ⟨50 * (i 0).val + 49, hlt⟩ 0 = (i 0).val := by
    rw [e0]; show (50 * (i 0).val + 49) / 50 = _; omega
  show i ∈ ((View.whole main_v2).slice (win0_4.rect ⟨50 * (i 0).val + 49, hlt⟩)).set
  rw [View.set_slice_whole, Rect.mem_set_unit]
  intro a
  match a with
  | ⟨0, _⟩ =>
    show win0_4.index ⟨50 * (i 0).val + 49, hlt⟩ 0 * 1 ≤ (i 0).val
      ∧ (i 0).val < win0_4.index ⟨50 * (i 0).val + 49, hlt⟩ 0 * 1 + 1
    omega
  | ⟨1, _⟩ =>
    show win0_4.index ⟨50 * (i 0).val + 49, hlt⟩ 1 * 1 ≤ (i 1).val
      ∧ (i 1).val < win0_4.index ⟨50 * (i 0).val + 49, hlt⟩ 1 * 1 + 1
    omega
  | ⟨2, _⟩ =>
    show win0_4.index ⟨50 * (i 0).val + 49, hlt⟩ 2 * 512 ≤ (i 2).val
      ∧ (i 2).val < win0_4.index ⟨50 * (i 0).val + 49, hlt⟩ 2 * 512 + 512
    omega

/-- The output array after the launch. -/
theorem final (c : Dev nD) : (dats m 0 c).arrAt 4 cfg0.N = halves m c :=
  (dats m 0 c).arrAt_eq_of_cover 4 (halves m c) (flushed_eq m c) cover

/-- What the program's last operation leaves in the result buffer: the two halves added, starting from zero. -/
theorem tail_eq (c : Dev nD) :
    Pipeline.afterTail₀ cfgs (dats m) 0 (V0 m) [hostOps1] c main_v3
      = Host.reduceAdd (F := Ideal) (halves m c) (constant S_ .f32 0x00000000#32) reducesTo_S2x1x512_S1x512_d0 h_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = halves m c :=
    (Pipeline.withArrays_arr spec0 launch0.win.arr_inj c _ _ 4).trans (final m c)
  rw [e]

/-- The two halves added from zero are zero plus the readout: the rows regrouped by halves and blocks. -/
theorem tail_apply (c : Dev nD) (u : Fin 1) (q : Fin 512) :
    Host.reduceAdd (F := Ideal) (halves m c) (constant S_ .f32 0x00000000#32) reducesTo_S2x1x512_S1x512_d0 h_S_ (ix2 u q)
      = result (in0 m c) (in1 m c) (inW m c) (m ((c : Thread nD τ).loc main_arg3)) (ix2 u q) := by
  rw [result_apply, readout_blocks]
  simp only [Host.reduceAdd, Ideal.hostReduceAdd_def]
  rw [Ideal.hostReduceAdd_single reducesTo_S2x1x512_S1x512_d0 (by decide)]
  refine congrArg₂ (· + ·) rfl ?_
  have hl : ∀ k : Fin 2, (by decide : S2x1x512.Reduces [0] S1x512).lift (ix2 u q) k = (ix3 k u q : S2x1x512.Idx) := fun k =>
    funext fun a => Fin.ext (by match a with | ⟨0, _⟩ => rfl | ⟨1, _⟩ => rfl | ⟨2, _⟩ => rfl)
  show ∑ k : Fin 2, halves m c ((by decide : S2x1x512.Reduces [0] S1x512).lift (ix2 u q) k) = _
  simp only [hl]
  rw [Fin.sum_univ_two]
  have hs : ∀ h : Fin 2, halves m c (ix3 h u q)
      = ∑ t : Fin 50, blockSum (in0 m c) (in1 m c) (inW m c) (inBias m c) (tile h t) q := fun h => by
    show ∑ s : Fin 50, term m c q (50 * h.val + s.val) = _
    refine Finset.sum_congr rfl fun s _ => ?_
    unfold term
    rw [dif_pos (by have := s.isLt; have := h.isLt; omega)]
    rfl
  rw [hs 0, hs 1]
  rfl

/-- THE KERNEL'S RUN, read: every weakly fair execution terminates with the result buffer at zero plus the readout of
    the argument arrays, and the argument arrays unchanged. -/
theorem run : θ_run defs (onTc (τ := τ) (main (F := Ideal))) ⟨m, fun _ => 0, ρ⟩ fun r => ∀ c : Dev nD,
      r.2.mem ((c.tc : Thread nD τ).loc main_v3)
        = result (in0 m c) (in1 m c) (inW m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans ((tail_eq m c).trans
        (funext fun i => by
          obtain ⟨u, q, rfl⟩ : ∃ (u : Fin 1) (q : Fin 512), i = ix2 u q := ⟨i 0, i 1, eq_ix2 i⟩
          exact tail_apply m c u q)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference computes the readout.

  The reference joins the two inputs side by side, multiplies by the transpose of `W`, adds the bias to every row,
  clamps below at zero and sums down all rows from zero. Read at an index: entry `(n, k)` of the joined matrix is
  `v0 (n, k)` for `k < 256` and `v1 (n, k − 256)` otherwise; the transpose read at `(k, j)` is `W (j, k)`; so entry `(n, j)` of
  the clamped matrix is the readout's clamped entry once the sum over the 512 columns is split into its halves.
-/
import proofs.«130849_j47545287967106_2_alg».proof.Proof.Gen.ReferenceIdeal.Read
import proofs.«130849_j47545287967106_2_alg».proof.Proof.SpecResult
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Readout

variable (x0 x1 : FVec Ideal S200000x256 .f32) (x2 : FVec Ideal S512x512 .f32) (x3 : FVec Ideal S512 .f32)

/-- The left half of row `n` of the joined matrix is row `n` of the first input. -/
theorem joined_left (n : Fin 200000) (k : Fin 256) : val_main_v0 (F := Ideal) x0 x1 (ix2 n (col 0 k)) = x0 (ix2 n k) := by
  unfold val_main_v0
  refine concatenate_pair_apply_left (1 : Fin S200000x512.rank) x0 x1 _ (ix2 n (col 0 k)) rfl (ix2 n k) fun b => ?_
  match b with
  | ⟨0, _⟩ => rfl
  | ⟨1, _⟩ => show k.val = 256 * 0 + k.val; omega

/-- The right half of row `n` of the joined matrix is row `n` of the second input. -/
theorem joined_right (n : Fin 200000) (k : Fin 256) : val_main_v0 (F := Ideal) x0 x1 (ix2 n (col 1 k)) = x1 (ix2 n k) := by
  unfold val_main_v0
  refine concatenate_pair_apply_right (1 : Fin S200000x512.rank) x0 x1 _ (ix2 n (col 1 k)) rfl rfl (ix2 n k) (fun b hb => ?_) ?_
  · match b with
    | ⟨0, _⟩ => rfl
    | ⟨1, _⟩ => exact absurd rfl hb
  · show k.val + 256 = 256 * 1 + k.val; omega

/-- Entry `(n, j)` of the reference's clamped matrix is the readout's clamped entry. -/
theorem clamped_apply (n : Fin 200000) (j : Fin 512) :
    val_main_v6 (F := Ideal) x0 x1 x2 x3 (ix2 n j) = act x0 x1 x2 (fun q => x3 (ix1 q)) n j := by
  have hl : ∀ k : Fin 512, lidx_main_v2 (ix2 n j) k = (ix2 n k : S200000x512.Idx) := fun k =>
    funext fun a => Fin.ext (by match a with | ⟨0, _⟩ => rfl | ⟨1, _⟩ => rfl)
  have hr : ∀ k : Fin 512, idx_main_v1 (ridx_main_v2 (ix2 n j) k) = (ix2 j k : S512x512.Idx) := fun k =>
    funext fun a => Fin.ext (by match a with | ⟨0, _⟩ => rfl | ⟨1, _⟩ => rfl)
  have hb : idx_main_v3 (idx_main_v4 (ix2 n j)) = (ix1 j : S512.Idx) :=
    funext fun a => Fin.ext (by match a with | ⟨0, _⟩ => rfl)
  rw [val_main_v6_apply, val_main_v5_apply, val_main_v2_apply, val_main_v4_apply, val_main_v3_apply,
    val_main_call0_v0_apply, val_main_call0_cst_apply]
  simp only [val_main_v1_apply, hl, hr, hb]
  show max ((∑ k : Fin 512, val_main_v0 (F := Ideal) x0 x1 (ix2 n k) * x2 (ix2 j k)) + x3 (ix1 j)) (Ideal.ofBits .f32 0x00000000#32) = _
  rw [Ideal.ofBits_zero_f32]
  exact act_of_joined x0 x1 (val_main_v0 (F := Ideal) x0 x1) x2 (fun q => x3 (ix1 q)) n j
    (joined_left x0 x1 n) (joined_right x0 x1 n)

/-- THE REFERENCE'S RESULT is zero plus the readout. -/
theorem result_eq : val_main_v8 (F := Ideal) x0 x1 x2 x3 = result x0 x1 x2 x3 := by
  funext i
  obtain ⟨u, q, rfl⟩ : ∃ (u : Fin 1) (q : Fin 512), i = ix2 u q := ⟨i 0, i 1, eq_ix2 i⟩
  rw [val_main_v8_apply, val_main_v7_apply, result_apply]
  refine congrArg₂ (· + ·) rfl (Finset.sum_congr rfl fun n _ => ?_)
  have hi : idx_main_v7 (idx_main_v8 (ix2 u q)) n = (ix2 n q : S200000x512.Idx) :=
    funext fun a => Fin.ext (by match a with | ⟨0, _⟩ => rfl | ⟨1, _⟩ => rfl)
  rw [hi]
  exact clamped_apply x0 x1 x2 x3 n q

end Cert.ReferenceIdeal.RefValue

end
-- ==== Proof.lean ====
/-
  A pooled readout layer: the kernel against its reference, equal as extended reals.

  Both programs take two matrices `v0, v1` (200000 x 256), a matrix `W` (512 x 512) and a bias `b` (512), and return the
  `[1, 512]` array whose entry `j` is

      0 + ∑ n < 200000, max ((∑ k < 512, [v0 | v1] (n, k) · W (j, k)) + b j) 0.

  The reference forms the joined matrix `[v0 | v1]`, one product with the transpose of `W`, and one sum down all rows.
  The kernel walks the rows in 100 blocks of 2000, in two halves of fifty blocks; at each block it multiplies the block
  of `v0` with the left halves of `W`'s rows and the block of `v1` with the right halves, adds the two products and the bias,
  clamps, sums down the block's rows and adds that to an accumulator that is reset at the first block of each half; the
  two halves' accumulators are added at the end. At the exact values a change of float format is the identity, so the
  two results differ only by how two finite sums are grouped — the 512 columns in two halves, the 200000 rows in halves
  of blocks — and regrouping a finite sum is valid in any additive commutative monoid, the extended reals included: the
  precondition (finite inputs) is not used.

  The modules: Spec (the formula and the two regroupings), KernelTile (one block's contribution at an index),
  KernelCases (what the accumulator block holds after a step, as the step's stored value), KernelBlocks (the blocks a step
  is given, as entries of the arguments), KernelChain (the accumulator after every step, by induction), KernelResult (the
  output array, the final addition, the kernel's run), RefValue (the reference's result). The frames of the two kernels and
  the two runs of host operations are generated; the idealization rewrote nothing, so its soundness claim is `True`.
-/
import proofs.«130849_j47545287967106_2_alg».proof.Defs
import proofs.«130849_j47545287967106_2_alg».proof.Proof.Gen.Kernel
import proofs.«130849_j47545287967106_2_alg».proof.Proof.Gen.Kernel.Skeleton
import proofs.«130849_j47545287967106_2_alg».proof.Proof.Gen.Kernel.Launch
import proofs.«130849_j47545287967106_2_alg».proof.Proof.Gen.Kernel.Points
import proofs.«130849_j47545287967106_2_alg».proof.Proof.Gen.Kernel.Frame
import proofs.«130849_j47545287967106_2_alg».proof.Proof.Gen.KernelIdeal
import proofs.«130849_j47545287967106_2_alg».proof.Proof.Gen.KernelIdeal.Skeleton
import proofs.«130849_j47545287967106_2_alg».proof.Proof.Gen.KernelIdeal.Launch
import proofs.«130849_j47545287967106_2_alg».proof.Proof.Gen.KernelIdeal.Points
import proofs.«130849_j47545287967106_2_alg».proof.Proof.Gen.KernelIdeal.Frame
import proofs.«130849_j47545287967106_2_alg».proof.Proof.Gen.ReferenceIdeal
import proofs.«130849_j47545287967106_2_alg».proof.Proof.Gen.Pre_finite_inputs
import proofs.«130849_j47545287967106_2_alg».proof.Proof.Gen.ReferenceIdeal.Run
import proofs.«130849_j47545287967106_2_alg».proof.Proof.Gen.ReferenceIdeal.Read
import proofs.«130849_j47545287967106_2_alg».proof.Proof.KernelResult
import proofs.«130849_j47545287967106_2_alg».proof.Proof.RefValue
import Idealize.ShloMosaic.Adequacy
import Idealize.ShloMosaic.Init

noncomputable section

namespace Cert.Proof

open Idealize.ShloMosaic Idealize.ShloMosaic.TcCoe Idealize.SL.Sem

/-- The kernel as compiled runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a straight line of host operations: it runs, and no operation writes an argument. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was read at the exact values. -/
theorem preserves : Cert.preserves_Kernel_KernelIdeal := trivial

/-- From arguments that agree, the kernel ends at zero plus the readout of its arguments (its run, read) and the
    reference at zero plus the readout of its own (its run, read index by index): one array. -/
theorem algebraic : Cert.algebraic_KernelIdeal_ReferenceIdeal := by
  intro m ρ m' ρ' _ hagree
  refine ⟨fun c => Readout.result (Cert.KernelIdeal.Chain.in0 m c) (Cert.KernelIdeal.Chain.in1 m c) (Cert.KernelIdeal.Chain.inW m c)
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq _ _ _ _).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
